-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x128 : Shape := ⟨3, ![64, 1024, 128]⟩
abbrev S512x1 : Shape := ⟨2, ![512, 1]⟩
abbrev S64x200000 : Shape := ⟨2, ![64, 200000]⟩
abbrev S64x200000x2 : Shape := ⟨3, ![64, 200000, 2]⟩
abbrev S_ : Shape := ⟨0, ![]⟩

class Facts : Prop where
  bcast_S_S64x1024x128 : S_.BroadcastsInDim S64x1024x128 (![] : Fin 0 → Fin S64x1024x128.rank)
  reducesTo_S64x1024x128_S_d0_1_2 : S64x1024x128.ReducesTo [0, 1, 2] S_
  h_S_ : 0 < S_.numel
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S64x1024x128 .f32) (main_arg1 : FVec F S512x1 .f32) (main_arg2 : IVec S64x200000 32) (main_arg3 : IVec S64x200000x2 32) : IVec S_ 1 :=
  let main_v0 : FVec F S64x1024x128 .f32 := Host.absf main_arg0
  let main_cst : FVec F S_ .f32 := constant S_ .f32 0x7F800000#32
  let main_v1 : FVec F S64x1024x128 .f32 := broadcastInDim S64x1024x128 ![] bcast_S_S64x1024x128 main_cst
  let main_v2 : IVec S64x1024x128 1 := cmpf .olt main_v0 main_v1
  let main_c : IVec S_ 1 := constantI S_ 1 1#1
  let main_v3 : IVec S_ 1 := (fun x v => Host.reduce IntOp.andi x v reducesTo_S64x1024x128_S_d0_1_2 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  main_v8
-- ==== Kernel.lean ====
abbrev S64x1024x128 : Shape := ⟨3, ![64, 1024, 128]⟩
abbrev S512x1 : Shape := ⟨2, ![512, 1]⟩
abbrev S64x200000 : Shape := ⟨2, ![64, 200000]⟩
abbrev S64x200000x2 : Shape := ⟨3, ![64, 200000, 2]⟩
abbrev S1x1 : Shape := ⟨2, ![1, 1]⟩
abbrev S_ : Shape := ⟨0, ![]⟩
abbrev S64x1024x1024 : Shape := ⟨3, ![64, 1024, 1024]⟩
abbrev S64x200000x1 : Shape := ⟨3, ![64, 200000, 1]⟩
abbrev S64 : Shape := ⟨1, ![64]⟩
abbrev S64x1 : Shape := ⟨2, ![64, 1]⟩
abbrev S64x200000x3 : Shape := ⟨3, ![64, 200000, 3]⟩
abbrev S1x1024x1024 : Shape := ⟨3, ![1, 1024, 1024]⟩
abbrev S1024x1024 : Shape := ⟨2, ![1024, 1024]⟩

abbrev nBuf : Space → Nat
  | .hbm => 55
  | .vmem => 4
  | .smem => 0
  | _ => 0

abbrev bufTy : (tb : Table) → Fin (tcTables nBuf tb) → BufTy
  | .hbm, ⟨0, _⟩ => ⟨S64x1024x128, .f32⟩
  | .hbm, ⟨1, _⟩ => ⟨S512x1, .f32⟩
  | .hbm, ⟨2, _⟩ => ⟨S64x200000, .i32⟩
  | .hbm, ⟨3, _⟩ => ⟨S64x200000x2, .i32⟩
  | .hbm, ⟨4, _⟩ => ⟨S1x1, .f32⟩
  | .hbm, ⟨5, _⟩ => ⟨S_, .f32⟩
  | .hbm, ⟨6, _⟩ => ⟨S64x1024x1024, .f32⟩
  | .hbm, ⟨7, _⟩ => ⟨S_, .i32⟩
  | .hbm, ⟨8, _⟩ => ⟨S64x200000, .i32⟩
  | .hbm, ⟨9, _⟩ => ⟨S64x200000, .i1⟩
  | .hbm, ⟨10, _⟩ => ⟨S_, .i32⟩
  | .hbm, ⟨11, _⟩ => ⟨S64x200000, .i32⟩
  | .hbm, ⟨12, _⟩ => ⟨S64x200000, .i32⟩
  | .hbm, ⟨13, _⟩ => ⟨S64x200000, .i32⟩
  | .hbm, ⟨14, _⟩ => ⟨S_, .i32⟩
  | .hbm, ⟨15, _⟩ => ⟨S64x200000, .i32⟩
  | .hbm, ⟨16, _⟩ => ⟨S64x200000, .i32⟩
  | .hbm, ⟨17, _⟩ => ⟨S64x200000x1, .i32⟩
  | .hbm, ⟨18, _⟩ => ⟨S64x200000x1, .i32⟩
  | .hbm, ⟨19, _⟩ => ⟨S64x200000x2, .i32⟩
  | .hbm, ⟨20, _⟩ => ⟨S64x200000, .f32⟩
  | .hbm, ⟨21, _⟩ => ⟨S64, .i32⟩
  | .hbm, ⟨22, _⟩ => ⟨S64x1, .i32⟩
  | .hbm, ⟨23, _⟩ => ⟨S64x200000x1, .i32⟩
  | .hbm, ⟨24, _⟩ => ⟨S64x200000, .i32⟩
  | .hbm, ⟨25, _⟩ => ⟨S64x200000x1, .i32⟩
  | .hbm, ⟨26, _⟩ => ⟨S64x200000, .i32⟩
  | .hbm, ⟨27, _⟩ => ⟨S_, .i32⟩
  | .hbm, ⟨28, _⟩ => ⟨S64x1, .i32⟩
  | .hbm, ⟨29, _⟩ => ⟨S64x1, .i1⟩
  | .hbm, ⟨30, _⟩ => ⟨S_, .i32⟩
  | .hbm, ⟨31, _⟩ => ⟨S64x1, .i32⟩
  | .hbm, ⟨32, _⟩ => ⟨S64x1, .i32⟩
  | .hbm, ⟨33, _⟩ => ⟨S64x1, .i32⟩
  | .hbm, ⟨34, _⟩ => ⟨S_, .i32⟩
  | .hbm, ⟨35, _⟩ => ⟨S64x200000, .i32⟩
  | .hbm, ⟨36, _⟩ => ⟨S64x200000, .i1⟩
  | .hbm, ⟨37, _⟩ => ⟨S_, .i32⟩
  | .hbm, ⟨38, _⟩ => ⟨S64x200000, .i32⟩
  | .hbm, ⟨39, _⟩ => ⟨S64x200000, .i32⟩
  | .hbm, ⟨40, _⟩ => ⟨S64x200000, .i32⟩
  | .hbm, ⟨41, _⟩ => ⟨S_, .i32⟩
  | .hbm, ⟨42, _⟩ => ⟨S64x200000, .i32⟩
  | .hbm, ⟨43, _⟩ => ⟨S64x200000, .i1⟩
  | .hbm, ⟨44, _⟩ => ⟨S_, .i32⟩
  | .hbm, ⟨45, _⟩ => ⟨S64x200000, .i32⟩
  | .hbm, ⟨46, _⟩ => ⟨S64x200000, .i32⟩
  | .hbm, ⟨47, _⟩ => ⟨S64x200000, .i32⟩
  | .hbm, ⟨48, _⟩ => ⟨S64x200000, .i32⟩
  | .hbm, ⟨49, _⟩ => ⟨S64x200000x1, .i32⟩
  | .hbm, ⟨50, _⟩ => ⟨S64x200000x1, .i32⟩
  | .hbm, ⟨51, _⟩ => ⟨S64x200000x1, .i32⟩
  | .hbm, ⟨52, _⟩ => ⟨S64x200000x3, .i32⟩
  | .hbm, ⟨53, _⟩ => ⟨S64x1024x1024, .f32⟩
  | .hbm, ⟨54, _⟩ => ⟨S64x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_c_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S512x1_S1x1_511_0 : S512x1.Slices ![511, 0] S1x1
  shapeCasts_S1x1_S_ : S1x1.ShapeCasts S_
  bcast_S_S64x1024x1024 : S_.BroadcastsInDim S64x1024x1024 (![] : Fin 0 → Fin S64x1024x1024.rank)
  bcast_S_S64x200000 : S_.BroadcastsInDim S64x200000 (![] : Fin 0 → Fin S64x200000.rank)
  bcast_S64x200000_S64x200000x1_0_1 : S64x200000.BroadcastsInDim S64x200000x1 (![0, 1] : Fin 2 → Fin S64x200000x1.rank)
  concatenates_S64x200000x1_S64x200000x1_S64x200000x2_d2 : Shape.Concatenates [S64x200000x1, S64x200000x1] S64x200000x2 2
  bcast_S64_S64x1_0 : S64.BroadcastsInDim S64x1 (![0] : Fin 1 → Fin S64x1.rank)
  slices_S64x200000x2_S64x200000x1_0_0_0 : S64x200000x2.Slices ![0, 0, 0] S64x200000x1
  shapeCasts_S64x200000x1_S64x200000 : S64x200000x1.ShapeCasts S64x200000
  slices_S64x200000x2_S64x200000x1_0_0_1 : S64x200000x2.Slices ![0, 0, 1] S64x200000x1
  bcast_S_S64x1 : S_.BroadcastsInDim S64x1 (![] : Fin 0 → Fin S64x1.rank)
  bcast_S64x1_S64x200000_0_1 : S64x1.BroadcastsInDim S64x200000 (![0, 1] : Fin 2 → Fin S64x200000.rank)
  concatenates_S64x200000x1_S64x200000x1_S64x200000x1_S64x200000x3_d2 : Shape.Concatenates [S64x200000x1, S64x200000x1, S64x200000x1] S64x200000x3 2
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  gather_S512x1_S64x200000x2_S64x200000_n_01_n_n_01_2_11_wf : GatherDims.WF S512x1 S64x200000x2 S64x200000 [] [0, 1] [] [0, 1] [] 2 ![1, 1]
  scatter_S64x1024x1024_S64x200000x3_S64x200000_n_012_012_2_wf : ScatterDims.WF S64x1024x1024 S64x200000x3 S64x200000 [] [0, 1, 2] [0, 1, 2] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)

variable [Facts₀]

def gather_S512x1_S64x200000x2_S64x200000_n_01_n_n_01_2_11 : GatherDims S512x1 S64x200000x2 S64x200000 where
  offsetDims := []
  collapsedSliceDims := [0, 1]
  operandBatchingDims := []
  startIndicesBatchingDims := []
  startIndexMap := [0, 1]
  indexVectorDim := 2
  sliceSizes := ![1, 1]
  wf := gather_S512x1_S64x200000x2_S64x200000_n_01_n_n_01_2_11_wf
def scatter_S64x1024x1024_S64x200000x3_S64x200000_n_012_012_2 : ScatterDims S64x1024x1024 S64x200000x3 S64x200000 where
  updateWindowDims := []
  insertedWindowDims := [0, 1, 2]
  scatterDimsToOperandDims := [0, 1, 2]
  indexVectorDim := 2
  wf := scatter_S64x1024x1024_S64x200000x3_S64x200000_n_012_012_2_wf

abbrev win0_0 : Pipeline.Window sig grid0 :=
  Pipeline.Window.ofSpec (Memref.whole main_v40) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x128 : Shape := ⟨3, ![64, 1024, 128]⟩
abbrev S512x1 : Shape := ⟨2, ![512, 1]⟩
abbrev S64x200000 : Shape := ⟨2, ![64, 200000]⟩
abbrev S64x200000x2 : Shape := ⟨3, ![64, 200000, 2]⟩
abbrev S1x1 : Shape := ⟨2, ![1, 1]⟩
abbrev S_ : Shape := ⟨0, ![]⟩
abbrev S64x1024x1024 : Shape := ⟨3, ![64, 1024, 1024]⟩
abbrev S64x200000x1 : Shape := ⟨3, ![64, 200000, 1]⟩
abbrev S64 : Shape := ⟨1, ![64]⟩
abbrev S64x1 : Shape := ⟨2, ![64, 1]⟩
abbrev S64x200000x3 : Shape := ⟨3, ![64, 200000, 3]⟩

abbrev nBuf : Space → Nat
  | .hbm => 54
  | .vmem => 0
  | .smem => 0
  | _ => 0

abbrev bufTy : (tb : Table) → Fin (tcTables nBuf tb) → BufTy
  | .hbm, ⟨0, _⟩ => ⟨S64x1024x128, .f32⟩
  | .hbm, ⟨1, _⟩ => ⟨S512x1, .f32⟩
  | .hbm, ⟨2, _⟩ => ⟨S64x200000, .i32⟩
  | .hbm, ⟨3, _⟩ => ⟨S64x200000x2, .i32⟩
  | .hbm, ⟨4, _⟩ => ⟨S1x1, .f32⟩
  | .hbm, ⟨5, _⟩ => ⟨S_, .f32⟩
  | .hbm, ⟨6, _⟩ => ⟨S64x1024x1024, .f32⟩
  | .hbm, ⟨7, _⟩ => ⟨S_, .i32⟩
  | .hbm, ⟨8, _⟩ => ⟨S64x200000, .i32⟩
  | .hbm, ⟨9, _⟩ => ⟨S64x200000, .i1⟩
  | .hbm, ⟨10, _⟩ => ⟨S_, .i32⟩
  | .hbm, ⟨11, _⟩ => ⟨S64x200000, .i32⟩
  | .hbm, ⟨12, _⟩ => ⟨S64x200000, .i32⟩
  | .hbm, ⟨13, _⟩ => ⟨S64x200000, .i32⟩
  | .hbm, ⟨14, _⟩ => ⟨S_, .i32⟩
  | .hbm, ⟨15, _⟩ => ⟨S64x200000, .i32⟩
  | .hbm, ⟨16, _⟩ => ⟨S64x200000, .i32⟩
  | .hbm, ⟨17, _⟩ => ⟨S64x200000x1, .i32⟩
  | .hbm, ⟨18, _⟩ => ⟨S64x200000x1, .i32⟩
  | .hbm, ⟨19, _⟩ => ⟨S64x200000x2, .i32⟩
  | .hbm, ⟨20, _⟩ => ⟨S64x200000, .f32⟩
  | .hbm, ⟨21, _⟩ => ⟨S64, .i32⟩
  | .hbm, ⟨22, _⟩ => ⟨S64x1, .i32⟩
  | .hbm, ⟨23, _⟩ => ⟨S64x200000x1, .i32⟩
  | .hbm, ⟨24, _⟩ => ⟨S64x200000, .i32⟩
  | .hbm, ⟨25, _⟩ => ⟨S64x200000x1, .i32⟩
  | .hbm, ⟨26, _⟩ => ⟨S64x200000, .i32⟩
  | .hbm, ⟨27, _⟩ => ⟨S_, .i32⟩
  | .hbm, ⟨28, _⟩ => ⟨S64x1, .i32⟩
  | .hbm, ⟨29, _⟩ => ⟨S64x1, .i1⟩
  | .hbm, ⟨30, _⟩ => ⟨S_, .i32⟩
  | .hbm, ⟨31, _⟩ => ⟨S64x1, .i32⟩
  | .hbm, ⟨32, _⟩ => ⟨S64x1, .i32⟩
  | .hbm, ⟨33, _⟩ => ⟨S64x1, .i32⟩
  | .hbm, ⟨34, _⟩ => ⟨S_, .i32⟩
  | .hbm, ⟨35, _⟩ => ⟨S64x200000, .i32⟩
  | .hbm, ⟨36, _⟩ => ⟨S64x200000, .i1⟩
  | .hbm, ⟨37, _⟩ => ⟨S_, .i32⟩
  | .hbm, ⟨38, _⟩ => ⟨S64x200000, .i32⟩
  | .hbm, ⟨39, _⟩ => ⟨S64x200000, .i32⟩
  | .hbm, ⟨40, _⟩ => ⟨S64x200000, .i32⟩
  | .hbm, ⟨41, _⟩ => ⟨S_, .i32⟩
  | .hbm, ⟨42, _⟩ => ⟨S64x200000, .i32⟩
  | .hbm, ⟨43, _⟩ => ⟨S64x200000, .i1⟩
  | .hbm, ⟨44, _⟩ => ⟨S_, .i32⟩
  | .hbm, ⟨45, _⟩ => ⟨S64x200000, .i32⟩
  | .hbm, ⟨46, _⟩ => ⟨S64x200000, .i32⟩
  | .hbm, ⟨47, _⟩ => ⟨S64x200000, .i32⟩
  | .hbm, ⟨48, _⟩ => ⟨S64x200000, .i32⟩
  | .hbm, ⟨49, _⟩ => ⟨S64x200000x1, .i32⟩
  | .hbm, ⟨50, _⟩ => ⟨S64x200000x1, .i32⟩
  | .hbm, ⟨51, _⟩ => ⟨S64x200000x1, .i32⟩
  | .hbm, ⟨52, _⟩ => ⟨S64x200000x3, .i32⟩
  | .hbm, ⟨53, _⟩ => ⟨S64x1024x1024, .f32⟩
  | _, _ => ⟨S64x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_c_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  slices_S512x1_S1x1_511_0 : S512x1.Slices ![511, 0] S1x1
  shapeCasts_S1x1_S_ : S1x1.ShapeCasts S_
  bcast_S_S64x1024x1024 : S_.BroadcastsInDim S64x1024x1024 (![] : Fin 0 → Fin S64x1024x1024.rank)
  bcast_S_S64x200000 : S_.BroadcastsInDim S64x200000 (![] : Fin 0 → Fin S64x200000.rank)
  bcast_S64x200000_S64x200000x1_0_1 : S64x200000.BroadcastsInDim S64x200000x1 (![0, 1] : Fin 2 → Fin S64x200000x1.rank)
  concatenates_S64x200000x1_S64x200000x1_S64x200000x2_d2 : Shape.Concatenates [S64x200000x1, S64x200000x1] S64x200000x2 2
  bcast_S64_S64x1_0 : S64.BroadcastsInDim S64x1 (![0] : Fin 1 → Fin S64x1.rank)
  slices_S64x200000x2_S64x200000x1_0_0_0 : S64x200000x2.Slices ![0, 0, 0] S64x200000x1
  shapeCasts_S64x200000x1_S64x200000 : S64x200000x1.ShapeCasts S64x200000
  slices_S64x200000x2_S64x200000x1_0_0_1 : S64x200000x2.Slices ![0, 0, 1] S64x200000x1
  bcast_S_S64x1 : S_.BroadcastsInDim S64x1 (![] : Fin 0 → Fin S64x1.rank)
  bcast_S64x1_S64x200000_0_1 : S64x1.BroadcastsInDim S64x200000 (![0, 1] : Fin 2 → Fin S64x200000.rank)
  concatenates_S64x200000x1_S64x200000x1_S64x200000x1_S64x200000x3_d2 : Shape.Concatenates [S64x200000x1, S64x200000x1, S64x200000x1] S64x200000x3 2
  gather_S512x1_S64x200000x2_S64x200000_n_01_n_n_01_2_11_wf : GatherDims.WF S512x1 S64x200000x2 S64x200000 [] [0, 1] [] [0, 1] [] 2 ![1, 1]
  scatter_S64x1024x1024_S64x200000x3_S64x200000_n_012_012_2_wf : ScatterDims.WF S64x1024x1024 S64x200000x3 S64x200000 [] [0, 1, 2] [0, 1, 2] 2

variable [Facts₀]

def gather_S512x1_S64x200000x2_S64x200000_n_01_n_n_01_2_11 : GatherDims S512x1 S64x200000x2 S64x200000 where
  offsetDims := []
  collapsedSliceDims := [0, 1]
  operandBatchingDims := []
  startIndicesBatchingDims := []
  startIndexMap := [0, 1]
  indexVectorDim := 2
  sliceSizes := ![1, 1]
  wf := gather_S512x1_S64x200000x2_S64x200000_n_01_n_n_01_2_11_wf
def scatter_S64x1024x1024_S64x200000x3_S64x200000_n_012_012_2 : ScatterDims S64x1024x1024 S64x200000x3 S64x200000 where
  updateWindowDims := []
  insertedWindowDims := [0, 1, 2]
  scatterDimsToOperandDims := [0, 1, 2]
  indexVectorDim := 2
  wf := scatter_S64x1024x1024_S64x200000x3_S64x200000_n_012_012_2_wf

class Facts : Prop extends Facts₀ where

variable [Facts]
-- ==== Proof.StreamBits.lean ====
/-
  The run of `Cert.Kernel`'s @main, at any float instance.

  @main is fifty host operations — the default value broadcast over the [64, 1024, 1024] grid, the embedding rows
  gathered for every (node1, node2) pair, and the scatter that writes each pair's embedding into its slot — followed by
  one pipelined region that streams the scattered grid through VMEM, one [1, 1024, 1024] slab per grid point: the slab
  of batch `b` is fetched, stored unchanged into the output's staging buffer, and written back to slab `b` of the
  result. (The body also loads the output's staging buffer once; the value is dropped.)

  This module gives: the buffers' contents when the region is entered (`entry`: the host operations folded over the
  launch memory), that no host operation writes an argument array (`entry_arg0` … `entry_arg3`), the body's triple
  (`copy_body`: the output's staging buffer ends holding the one store's value of the input's), the pipeline's
  proof data (`data`), the body obligation at every grid point, the run to the library's frame post (`run_main`) and
  the frame claim (`frame`: the four argument arrays end as launched).
-/
import proofs.«133970_j18691697672325_2_alg».proof.Proof.Gen.Kernel.Launch
import proofs.«133970_j18691697672325_2_alg».proof.Proof.Gen.Kernel.Skeleton
import proofs.«133970_j18691697672325_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the fifty host operations applied, in order, to the launch memory. -/
abbrev entry (c : Dev nD) (b : Ref sig .tc) : Buf (Elt F) ((c : Thread nD τ).loc b) :=
  StableHlo.after hostOps0 (fun b => m (c, b)) b

/-- No host operation allocates anything. -/
theorem host_fresh : (hostOps0 : List (HloOp τ sig (Elt F))).Forall fun op => op.fresh = ∅ := by
  simp only [List.Forall]; repeat' constructor

/-- @main is the host operations and then the region, entered at `entry`. -/
theorem hmain (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub host_fresh main_chain

/-- Each host operation writes its one result buffer, and no result buffer is an argument: the region finds the four
    argument arrays as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The slabs -/

/-- Window `w`'s slab at grid point `t`, read off its array as the region finds it. -/
def slab (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- The input window is fetched at every point and never written back, so its current staging buffer holds the point's
    slab of the scattered grid, for any proof data over the entry contents whose body leaves that slab in place. -/
theorem input_before_of {c : Dev nD} (dat : Dat τ (Elt F) Unit ℕ (UR sig nD τ) ℕ cfg0 c)
    (hA : dat.A 0 = entry m c (Pipeline.arrRef spec0 0)) (hafter : ∀ t, dat.after 0 t = slab m c 0 t)
    (t : Fin cfg0.N) (d) : dat.before 0 t d = slab m c 0 t :=
  (dat.before_in_eq_fetched 0 rfl (fun _ => rfl) (fun _ _ _ => rfl)
      (fun t => by rw [hafter]; unfold Dat.blockOf slab; rw [hA]; try rfl) t d).trans
    (by unfold Dat.fetched Dat.blockOf slab; rw [hA]; try rfl)

/-! ## The body -/

/-- The whole [1, 1024, 1024] staging buffer, as the rectangle the body's load and store go through. -/
abbrev whole : Rect S1x1024x1024 := Rect.unit (s := S1x1024x1024) ![0, 0, 0] S1x1024x1024.size inb_S1x1024x1024_S1x1024x1024_0_0_0

/-- What the output's staging buffer holds after the body, from the input's: the one store, of the loaded slab cast to
    [1024, 1024] and back. -/
def stored (x : Vec F S1x1024x1024 .f32) : Vec F S1x1024x1024 .f32 :=
  View.canon [⟨whole, k0_pay1 (View.ld x whole)⟩]

/-- The one store covers the buffer. -/
theorem stored_cover (p : Vec F S1x1024x1024 .f32) (y : S1x1024x1024.Idx) :
    ∃ pc ∈ ([⟨whole, p⟩] : List (View.Piece (Elt F) S1x1024x1024 .f32)), y ∈ pc.1.set :=
  View.cover_of_tiled [⟨whole, p⟩] S1x1024x1024.size (by rfl) y

set_option maxHeartbeats 1000000 in
/-- The body on whole staging memrefs — the input's at contents `x`, the output's at anything — runs to the
    continuation with the input's as it was and the output's at `stored x`. -/
theorem copy_body (c : Dev nD) (E : Set ℕ) (i : grid0.Coords)
    (arg1 : Memref sig .tc .vmem S1x1024x1024 .f32) (harg1 : arg1.IsWhole)
    (arg2 : Memref sig .tc .vmem S1x1024x1024 .f32) (harg2 : arg2.IsWhole)
    (x : Vec F S1x1024x1024 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (stored x)) -∗ K ⟨⟩))
      ⊢ wp frame (wpE (defs₀ (F := F)) Variants.none c none) E (cc0__copy_kernel i arg1 harg1 arg2 harg2) K := by
  simp only [cc0__copy_kernel_eq_skeleton]; unfold cc0__copy_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored_cover _)

/-! ## The pipeline's proof data -/

/-- On core `c`: the arrays as the region finds them; after the body at point `t` the input's buffer at its slab and the
    output's at `stored` of that slab; the invariant the scoped rest and the generator register, untouched; nothing
    owed; full shares. -/
def data (_ : Fin 1) (c : Dev nD) : Dat τ (Elt F) Unit ℕ (UR sig nD τ) ℕ cfg0 c where
  A w := entry m c (Pipeline.arrRef spec0 w)
  after w t := match w with
    | ⟨0, _⟩ => slab m c 0 t
    | ⟨1, _⟩ => stored (slab m c 0 t)
  Φ _ := Pipeline.ΦA spec0 c
  q _ := fullShare
  owed _ := 0

theorem data_A (c : Dev nD) (w : Fin cfg0.W) : (data m 0 c).A w = entry m c (Pipeline.arrRef spec0 w) := by
  dsimp only [data]

theorem after_in (c : Dev nD) (t : Fin cfg0.N) : (data m 0 c).after 0 t = slab m c 0 t := by dsimp only [data]
theorem after_out (c : Dev nD) (t : Fin cfg0.N) : (data m 0 c).after 1 t = stored (slab m c 0 t) := by dsimp only [data]

theorem input_before (c : Dev nD) (t : Fin cfg0.N) (d) : (data m 0 c).before 0 t d = slab m c 0 t :=
  input_before_of m (data m 0 c) (data_A m c 0) (after_in m c) t d

/-! ## The body obligation -/

/-- What the body is called with at point `t`, -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d)))

/-- and what it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t))

/-- The body at any point: the input's memref holds its slab, so `copy_body` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [input_before]
  rw [show (data m 0 c).Φ t.succ = (data m 0 c).Φ t.castSucc from rfl,
    show (data m 0 c).owesAt () t.succ = (data m 0 c).owesAt () t.castSucc from rfl,
    after_in, after_out]
  iintro ⟨HΦ, Ho, ⟨%d0, H0⟩, ⟨%d1, H1⟩⟩
  iapply (copy_body c Set.univ (grid0.coords t) _ _ _ _ (slab m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (data (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the two arrays of the pipeline at what
    the library computes from the proof data and every other unscoped buffer as the region found it. -/
theorem run_main : θ_run defs (onTc (τ := τ) (main (F := F))) (s₀ m ρ) (Pipeline.FramePost cfgs (data m) 0 (entry m)) :=
  Pipeline.θ_run_frame cfgs (data m) (0 : Fin 1) launch0 defs₀ Variants.none m ρ main
    (hbody := fun c => (body_obligation m c).loose) (hshare := fun c => (data m 0 c).share_full fun _ => rfl)
    (howed := fun _ _ => rfl) (V := entry m) (hmain := hmain m Variants.none) (hA := data_A m) (hΦ := fun _ _ => rfl)

/-- After the run an argument array is as launched: no window stages it, so it is as the region found it, and no host
    operation wrote it. -/
theorem kept_arg0 (r : PUnit × MemSt nD τ sig (Elt F)) (h : Pipeline.FramePost cfgs (data m) 0 (entry m) r) (c : Dev nD) :
    r.2.mem ((c : Thread nD τ).loc main_arg0) = m ((c : Thread nD τ).loc main_arg0) :=
  ((h c).2 main_arg0 (Pipeline.mem_restRefs_of main_arg0 (by decide) (by decide))).trans (entry_arg0 m c)
theorem kept_arg1 (r : PUnit × MemSt nD τ sig (Elt F)) (h : Pipeline.FramePost cfgs (data m) 0 (entry m) r) (c : Dev nD) :
    r.2.mem ((c : Thread nD τ).loc main_arg1) = m ((c : Thread nD τ).loc main_arg1) :=
  ((h c).2 main_arg1 (Pipeline.mem_restRefs_of main_arg1 (by decide) (by decide))).trans (entry_arg1 m c)
theorem kept_arg2 (r : PUnit × MemSt nD τ sig (Elt F)) (h : Pipeline.FramePost cfgs (data m) 0 (entry m) r) (c : Dev nD) :
    r.2.mem ((c : Thread nD τ).loc main_arg2) = m ((c : Thread nD τ).loc main_arg2) :=
  ((h c).2 main_arg2 (Pipeline.mem_restRefs_of main_arg2 (by decide) (by decide))).trans (entry_arg2 m c)
theorem kept_arg3 (r : PUnit × MemSt nD τ sig (Elt F)) (h : Pipeline.FramePost cfgs (data m) 0 (entry m) r) (c : Dev nD) :
    r.2.mem ((c : Thread nD τ).loc main_arg3) = m ((c : Thread nD τ).loc main_arg3) :=
  ((h c).2 main_arg3 (Pipeline.mem_restRefs_of main_arg3 (by decide) (by decide))).trans (entry_arg3 m c)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨kept_arg0 m r h c, kept_arg1 m r h c, kept_arg2 m r h c, kept_arg3 m r h c⟩)
    (run_main m ρ)

end Cert.Kernel.Stream

end
-- ==== Proof.StreamIdeal.lean ====
/-
  The run of `Cert.KernelIdeal`'s @main, at any float instance.

  @main is fifty host operations — the default value broadcast over the [64, 1024, 1024] grid, the embedding rows
  gathered for every (node1, node2) pair, and the scatter that writes each pair's embedding into its slot — followed by
  one pipelined region that streams the scattered grid through VMEM, one [1, 1024, 1024] slab per grid point: the slab
  of batch `b` is fetched, stored unchanged into the output's staging buffer, and written back to slab `b` of the
  result. (The body also loads the output's staging buffer once; the value is dropped.)

  This module gives: the buffers' contents when the region is entered (`entry`: the host operations folded over the
  launch memory), that no host operation writes an argument array (`entry_arg0` … `entry_arg3`), the body's triple
  (`copy_body`: the output's staging buffer ends holding the one store's value of the input's), the pipeline's
  proof data (`data`), the body obligation at every grid point, the run to the library's frame post (`run_main`) and
  the frame claim (`frame`: the four argument arrays end as launched).
-/
import proofs.«133970_j18691697672325_2_alg».proof.Proof.Gen.KernelIdeal.Launch
import proofs.«133970_j18691697672325_2_alg».proof.Proof.Gen.KernelIdeal.Skeleton
import proofs.«133970_j18691697672325_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the fifty host operations applied, in order, to the launch memory. -/
abbrev entry (c : Dev nD) (b : Ref sig .tc) : Buf (Elt F) ((c : Thread nD τ).loc b) :=
  StableHlo.after hostOps0 (fun b => m (c, b)) b

/-- No host operation allocates anything. -/
theorem host_fresh : (hostOps0 : List (HloOp τ sig (Elt F))).Forall fun op => op.fresh = ∅ := by
  simp only [List.Forall]; repeat' constructor

/-- @main is the host operations and then the region, entered at `entry`. -/
theorem hmain (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub host_fresh main_chain

/-- Each host operation writes its one result buffer, and no result buffer is an argument: the region finds the four
    argument arrays as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The slabs -/

/-- Window `w`'s slab at grid point `t`, read off its array as the region finds it. -/
def slab (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- The input window is fetched at every point and never written back, so its current staging buffer holds the point's
    slab of the scattered grid, for any proof data over the entry contents whose body leaves that slab in place. -/
theorem input_before_of {c : Dev nD} (dat : Dat τ (Elt F) Unit ℕ (UR sig nD τ) ℕ cfg0 c)
    (hA : dat.A 0 = entry m c (Pipeline.arrRef spec0 0)) (hafter : ∀ t, dat.after 0 t = slab m c 0 t)
    (t : Fin cfg0.N) (d) : dat.before 0 t d = slab m c 0 t :=
  (dat.before_in_eq_fetched 0 rfl (fun _ => rfl) (fun _ _ _ => rfl)
      (fun t => by rw [hafter]; unfold Dat.blockOf slab; rw [hA]; try rfl) t d).trans
    (by unfold Dat.fetched Dat.blockOf slab; rw [hA]; try rfl)

/-! ## The body -/

/-- The whole [1, 1024, 1024] staging buffer, as the rectangle the body's load and store go through. -/
abbrev whole : Rect S1x1024x1024 := Rect.unit (s := S1x1024x1024) ![0, 0, 0] S1x1024x1024.size inb_S1x1024x1024_S1x1024x1024_0_0_0

/-- What the output's staging buffer holds after the body, from the input's: the one store, of the loaded slab cast to
    [1024, 1024] and back. -/
def stored (x : Vec F S1x1024x1024 .f32) : Vec F S1x1024x1024 .f32 :=
  View.canon [⟨whole, k0_pay1 (View.ld x whole)⟩]

/-- The one store covers the buffer. -/
theorem stored_cover (p : Vec F S1x1024x1024 .f32) (y : S1x1024x1024.Idx) :
    ∃ pc ∈ ([⟨whole, p⟩] : List (View.Piece (Elt F) S1x1024x1024 .f32)), y ∈ pc.1.set :=
  View.cover_of_tiled [⟨whole, p⟩] S1x1024x1024.size (by rfl) y

set_option maxHeartbeats 1000000 in
/-- The body on whole staging memrefs — the input's at contents `x`, the output's at anything — runs to the
    continuation with the input's as it was and the output's at `stored x`. -/
theorem copy_body (c : Dev nD) (E : Set ℕ) (i : grid0.Coords)
    (arg1 : Memref sig .tc .vmem S1x1024x1024 .f32) (harg1 : arg1.IsWhole)
    (arg2 : Memref sig .tc .vmem S1x1024x1024 .f32) (harg2 : arg2.IsWhole)
    (x : Vec F S1x1024x1024 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (stored x)) -∗ K ⟨⟩))
      ⊢ wp frame (wpE (defs₀ (F := F)) Variants.none c none) E (cc0__copy_kernel i arg1 harg1 arg2 harg2) K := by
  simp only [cc0__copy_kernel_eq_skeleton]; unfold cc0__copy_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored_cover _)

/-! ## The pipeline's proof data -/

/-- On core `c`: the arrays as the region finds them; after the body at point `t` the input's buffer at its slab and the
    output's at `stored` of that slab; the invariant the scoped rest and the generator register, untouched; nothing
    owed; full shares. -/
def data (_ : Fin 1) (c : Dev nD) : Dat τ (Elt F) Unit ℕ (UR sig nD τ) ℕ cfg0 c where
  A w := entry m c (Pipeline.arrRef spec0 w)
  after w t := match w with
    | ⟨0, _⟩ => slab m c 0 t
    | ⟨1, _⟩ => stored (slab m c 0 t)
  Φ _ := Pipeline.ΦA spec0 c
  q _ := fullShare
  owed _ := 0

theorem data_A (c : Dev nD) (w : Fin cfg0.W) : (data m 0 c).A w = entry m c (Pipeline.arrRef spec0 w) := by
  dsimp only [data]

theorem after_in (c : Dev nD) (t : Fin cfg0.N) : (data m 0 c).after 0 t = slab m c 0 t := by dsimp only [data]
theorem after_out (c : Dev nD) (t : Fin cfg0.N) : (data m 0 c).after 1 t = stored (slab m c 0 t) := by dsimp only [data]

theorem input_before (c : Dev nD) (t : Fin cfg0.N) (d) : (data m 0 c).before 0 t d = slab m c 0 t :=
  input_before_of m (data m 0 c) (data_A m c 0) (after_in m c) t d

/-! ## The body obligation -/

/-- What the body is called with at point `t`, -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d)))

/-- and what it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t))

/-- The body at any point: the input's memref holds its slab, so `copy_body` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [input_before]
  rw [show (data m 0 c).Φ t.succ = (data m 0 c).Φ t.castSucc from rfl,
    show (data m 0 c).owesAt () t.succ = (data m 0 c).owesAt () t.castSucc from rfl,
    after_in, after_out]
  iintro ⟨HΦ, Ho, ⟨%d0, H0⟩, ⟨%d1, H1⟩⟩
  iapply (copy_body c Set.univ (grid0.coords t) _ _ _ _ (slab m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (data (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the two arrays of the pipeline at what
    the library computes from the proof data and every other unscoped buffer as the region found it. -/
theorem run_main : θ_run defs (onTc (τ := τ) (main (F := F))) (s₀ m ρ) (Pipeline.FramePost cfgs (data m) 0 (entry m)) :=
  Pipeline.θ_run_frame cfgs (data m) (0 : Fin 1) launch0 defs₀ Variants.none m ρ main
    (hbody := fun c => (body_obligation m c).loose) (hshare := fun c => (data m 0 c).share_full fun _ => rfl)
    (howed := fun _ _ => rfl) (V := entry m) (hmain := hmain m Variants.none) (hA := data_A m) (hΦ := fun _ _ => rfl)

/-- After the run an argument array is as launched: no window stages it, so it is as the region found it, and no host
    operation wrote it. -/
theorem kept_arg0 (r : PUnit × MemSt nD τ sig (Elt F)) (h : Pipeline.FramePost cfgs (data m) 0 (entry m) r) (c : Dev nD) :
    r.2.mem ((c : Thread nD τ).loc main_arg0) = m ((c : Thread nD τ).loc main_arg0) :=
  ((h c).2 main_arg0 (Pipeline.mem_restRefs_of main_arg0 (by decide) (by decide))).trans (entry_arg0 m c)
theorem kept_arg1 (r : PUnit × MemSt nD τ sig (Elt F)) (h : Pipeline.FramePost cfgs (data m) 0 (entry m) r) (c : Dev nD) :
    r.2.mem ((c : Thread nD τ).loc main_arg1) = m ((c : Thread nD τ).loc main_arg1) :=
  ((h c).2 main_arg1 (Pipeline.mem_restRefs_of main_arg1 (by decide) (by decide))).trans (entry_arg1 m c)
theorem kept_arg2 (r : PUnit × MemSt nD τ sig (Elt F)) (h : Pipeline.FramePost cfgs (data m) 0 (entry m) r) (c : Dev nD) :
    r.2.mem ((c : Thread nD τ).loc main_arg2) = m ((c : Thread nD τ).loc main_arg2) :=
  ((h c).2 main_arg2 (Pipeline.mem_restRefs_of main_arg2 (by decide) (by decide))).trans (entry_arg2 m c)
theorem kept_arg3 (r : PUnit × MemSt nD τ sig (Elt F)) (h : Pipeline.FramePost cfgs (data m) 0 (entry m) r) (c : Dev nD) :
    r.2.mem ((c : Thread nD τ).loc main_arg3) = m ((c : Thread nD τ).loc main_arg3) :=
  ((h c).2 main_arg3 (Pipeline.mem_restRefs_of main_arg3 (by decide) (by decide))).trans (entry_arg3 m c)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨kept_arg0 m r h c, kept_arg1 m r h c, kept_arg2 m r h c, kept_arg3 m r h c⟩)
    (run_main m ρ)

end Cert.KernelIdeal.Stream

end
-- ==== Proof.ValueIdeal.lean ====
/-
  What the streamed result holds after `Cert.KernelIdeal`'s run, at any float instance.

  Grid point `t` writes back, to slab `t` of the result, the input window's slab `t` of the scattered grid: the body's
  one store is its load cast [1, 1024, 1024] → [1024, 1024] → [1, 1024, 1024], which is the identity, and the two
  windows' index maps are the same function `b ↦ (b, 0, 0)`. The 64 slabs tile the [64, 1024, 1024] result — the
  entry `(b, i, j)` lies in the slab of point `b` — so the result array ends holding the scattered grid itself.

  The scattered grid, in turn, is the host operations' composed term of the argument arrays (`scattered`): the last
  embedding row `weight[511, 0]` everywhere, overwritten at each `(b, node1, node2)` slot by the embedding
  `weight[distance, 0]` of the pair, negative indices wrapped as jnp does, later pairs winning.
-/
import proofs.«133970_j18691697672325_2_alg».proof.Proof.StreamIdeal
import Idealize.ShloMosaic.Lib.Pipeline.Value
import Idealize.ShloMosaic.Lib.StableHlo.Run

set_option maxRecDepth 16384

noncomputable section

namespace Cert.KernelIdeal.Stream

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The scattered grid as a function of the argument arrays -/

/-- `weight[511, 0]`, the "no path" embedding, at every entry of the grid. -/
def fill (w : (⟨S512x1, .f32⟩ : BufTy).Contents (Elt F)) : (⟨S64x1024x1024, .f32⟩ : BufTy).Contents (Elt F) :=
  broadcastInDim S64x1024x1024 ![] bcast_S_S64x1024x1024
    (shapeCast _ (extractStridedSlice S1x1 ![511, 0] w slices_S512x1_S1x1_511_0) shapeCasts_S1x1_S_)

/-- The batch number of every pair, as a column: `arange(64)[:, None]` (wrapped by 64 where negative, which it never is)
    repeated along the 200000 pairs. -/
def batchCol : (⟨S64x200000x1, .i32⟩ : BufTy).Contents (Elt F) :=
  broadcastInDim S64x200000x1 ![0, 1] bcast_S64x200000_S64x200000x1_0_1
    (broadcastInDim S64x200000 ![0, 1] bcast_S64x1_S64x200000_0_1
      (select (cmpi .slt (broadcastInDim S64x1 ![0] bcast_S64_S64x1_0 (iotaInDim S64 32 0)) (broadcastInDim S64x1 ![] bcast_S_S64x1 (constantI S_ 32 0#32)))
        (addi (broadcastInDim S64x1 ![0] bcast_S64_S64x1_0 (iotaInDim S64 32 0)) (broadcastInDim S64x1 ![] bcast_S_S64x1 (constantI S_ 32 64#32)))
        (broadcastInDim S64x1 ![0] bcast_S64_S64x1_0 (iotaInDim S64 32 0))))

/-- A node index of every pair, wrapped into the axis of extent 1024 (`i + 1024` where `i < 0`), as a column. -/
def nodeCol (i : (⟨S64x200000, .i32⟩ : BufTy).Contents (Elt F)) : (⟨S64x200000x1, .i32⟩ : BufTy).Contents (Elt F) :=
  broadcastInDim S64x200000x1 ![0, 1] bcast_S64x200000_S64x200000x1_0_1
    (select (cmpi .slt i (broadcastInDim S64x200000 ![] bcast_S_S64x200000 (constantI S_ 32 0#32)))
      (addi i (broadcastInDim S64x200000 ![] bcast_S_S64x200000 (constantI S_ 32 1024#32))) i)

/-- The embedding of every pair: row `distance` (wrapped into the 512 rows), column 0, of the table. -/
def embedding (w : (⟨S512x1, .f32⟩ : BufTy).Contents (Elt F)) (dist : (⟨S64x200000, .i32⟩ : BufTy).Contents (Elt F)) :
    (⟨S64x200000, .f32⟩ : BufTy).Contents (Elt F) :=
  Host.gather gather_S512x1_S64x200000x2_S64x200000_n_01_n_n_01_2_11 w
    (concatenate S64x200000x2 2
      [⟨S64x200000x1, (broadcastInDim S64x200000x1 ![0, 1] bcast_S64x200000_S64x200000x1_0_1
          (select (cmpi .slt dist (broadcastInDim S64x200000 ![] bcast_S_S64x200000 (constantI S_ 32 0#32)))
            (addi dist (broadcastInDim S64x200000 ![] bcast_S_S64x200000 (constantI S_ 32 512#32))) dist))⟩,
       ⟨S64x200000x1, (broadcastInDim S64x200000x1 ![0, 1] bcast_S64x200000_S64x200000x1_0_1
          (id (broadcastInDim S64x200000 ![] bcast_S_S64x200000 (constantI S_ 32 0#32))))⟩]
      concatenates_S64x200000x1_S64x200000x1_S64x200000x2_d2)

/-- The grid after the scatter: `fill`, then every pair's embedding set at its `(batch, node1, node2)` slot. -/
def scattered (w : (⟨S512x1, .f32⟩ : BufTy).Contents (Elt F)) (dist : (⟨S64x200000, .i32⟩ : BufTy).Contents (Elt F))
    (pairs : (⟨S64x200000x2, .i32⟩ : BufTy).Contents (Elt F)) : (⟨S64x1024x1024, .f32⟩ : BufTy).Contents (Elt F) :=
  Host.scatter scatter_S64x1024x1024_S64x200000x3_S64x200000_n_012_012_2 (fun _ b => b) (fill w)
    (concatenate S64x200000x3 2
      [⟨S64x200000x1, batchCol (F := F)⟩,
       ⟨S64x200000x1, nodeCol (shapeCast _ (extractStridedSlice S64x200000x1 ![0, 0, 0] pairs slices_S64x200000x2_S64x200000x1_0_0_0) shapeCasts_S64x200000x1_S64x200000)⟩,
       ⟨S64x200000x1, nodeCol (shapeCast _ (extractStridedSlice S64x200000x1 ![0, 0, 1] pairs slices_S64x200000x2_S64x200000x1_0_0_1) shapeCasts_S64x200000x1_S64x200000)⟩]
      concatenates_S64x200000x1_S64x200000x1_S64x200000x1_S64x200000x3_d2)
    (embedding w dist)

set_option maxHeartbeats 2000000 in
/-- The region finds the scattered grid in the input window's array: the fifty host operations, composed. -/
theorem entry_grid (c : Dev nD) :
    entry m c (Pipeline.arrRef spec0 0) = scattered (m ((c : Thread nD τ).loc main_arg1)) (m ((c : Thread nD τ).loc main_arg2)) (m ((c : Thread nD τ).loc main_arg3)) := by
  show StableHlo.after hostOps0 (fun b => m (c, b)) (Proc.devRef .tc main_v40) = _
  after_results_simp <;> rfl

/-! ## What each grid point writes back -/

theorem zero3 : (![0, 0, 0] : Fin 3 → Nat) = fun _ => 0 := funext fun a => by fin_cases a <;> rfl

/-- The store's value is the loaded slab: a cast to [1024, 1024] and back. -/
theorem pay_id (x : Vec F S1x1024x1024 .f32) : k0_pay1 x = x :=
  shapeCast_shapeCast x shapeCasts_S1x1024x1024_S1024x1024 shapeCasts_S1024x1024_S1x1024x1024

/-- The index maps, decided over the 64 grid points: both windows are at block `(t, 0, 0)`. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Read through the two windows' blocks at point `t`, any [64, 1024, 1024] array gives the same slab: both blocks sit
    at `(t, 0, 0)`, and the output window cuts nothing off. -/
theorem same_slab (t : Fin cfg0.N) (X : (⟨S64x1024x1024, .f32⟩ : BufTy).Contents (Elt F)) :
    (cfg0.win 1).cut (grid0.coords t) (((cfg0.win 0).blk t).view.read (Elt F) X)
      = ((cfg0.win 1).blk t).view.read (Elt F) X := by
  obtain ⟨e0, e1, e2, e3, e4, e5⟩ := index_facts t
  funext j
  show X (((cfg0.win 0).blk t).view.emb j) = X (((cfg0.win 1).blk t).view.emb j)
  refine congrArg X ?_
  funext a; apply Fin.ext
  match a with
  | ⟨0, _⟩ => show win0_0.index t (0 : Fin 3) * 1 + 1 * (j 0).val = win0_1.index t (0 : Fin 3) * 1 + 1 * (j 0).val; omega
  | ⟨1, _⟩ => show win0_0.index t (1 : Fin 3) * 1024 + 1 * (j 1).val = win0_1.index t (1 : Fin 3) * 1024 + 1 * (j 1).val; omega
  | ⟨2, _⟩ => show win0_0.index t (2 : Fin 3) * 1024 + 1 * (j 2).val = win0_1.index t (2 : Fin 3) * 1024 + 1 * (j 2).val; omega

/-- Point `t` writes back slab `t` of the grid the region found in the input window's array (named `X`, so that its
    contents are never looked into). -/
theorem flushed_out (c : Dev nD) (t : Fin cfg0.N) (X : (⟨S64x1024x1024, .f32⟩ : BufTy).Contents (Elt F))
    (hX : entry m c (Pipeline.arrRef spec0 0) = X) :
    (data m 0 c).flushed 1 t = ((cfg0.win 1).blk t).view.read (Elt F) X := by
  show (cfg0.win 1).cut (grid0.coords t) ((data m 0 c).after 1 t) = _
  rw [after_out]
  unfold stored
  rw [View.canon_unit_zero zero3]
  simp only [View.ld_unit_zero (S := S1x1024x1024) zero3]
  rw [pay_id]
  unfold slab
  rw [hX]
  exact same_slab t X

/-! ## The slabs tile the result -/

/-- An entry of the result is in point `t`'s slab iff each coordinate is in the slab's range on its axis. -/
theorem mem_slab (t : Fin cfg0.N) (i : S64x1024x1024.Idx) :
    i ∈ ((cfg0.win 1).blk t).view.set ↔ ∀ a : Fin 3, win0_1.index t a * S1x1024x1024.size a ≤ (i a).val ∧ (i a).val < win0_1.index t a * S1x1024x1024.size a + S1x1024x1024.size a := by
  show i ∈ ((View.whole main_v41).slice (win0_1.rect t)).set ↔ _
  rw [View.set_slice_whole, Rect.mem_set_unit]
  exact Iff.rfl

/-- Entry `(b, i, j)` is in the slab of point `b`, and every point writes back. -/
theorem covered (i : S64x1024x1024.Idx) :
    ∃ t : Fin cfg0.N, (cfg0.win 1).flush t = true ∧ i ∈ ((cfg0.win 1).blk t).view.set := by
  have hi0 : (i 0).val < 64 := (i 0).isLt
  have hi1 : (i 1).val < 1024 := (i 1).isLt
  have hi2 : (i 2).val < 1024 := (i 2).isLt
  have hN : cfg0.N = 64 := N_0
  obtain ⟨-, -, -, e3, e4, e5⟩ := index_facts ⟨(i 0).val, by omega⟩
  refine ⟨⟨(i 0).val, by omega⟩, flush0_1 _, ?_⟩
  rw [mem_slab]
  intro a
  match a with
  | ⟨0, _⟩ => show win0_1.index _ (0 : Fin 3) * 1 ≤ (i 0).val ∧ (i 0).val < win0_1.index _ (0 : Fin 3) * 1 + 1; rw [e3]; show (i 0).val * 1 ≤ (i 0).val ∧ (i 0).val < (i 0).val * 1 + 1; omega
  | ⟨1, _⟩ => show win0_1.index _ (1 : Fin 3) * 1024 ≤ (i 1).val ∧ (i 1).val < win0_1.index _ (1 : Fin 3) * 1024 + 1024; rw [e4]; omega
  | ⟨2, _⟩ => show win0_1.index _ (2 : Fin 3) * 1024 ≤ (i 2).val ∧ (i 2).val < win0_1.index _ (2 : Fin 3) * 1024 + 1024; rw [e5]; omega

/-- The result array after the run is the grid the region found. -/
theorem result_final (c : Dev nD) : (data m 0 c).arrAt 1 cfg0.N = entry m c (Pipeline.arrRef spec0 0) :=
  (data m 0 c).arrAt_eq_of_cover 1 (entry m c (Pipeline.arrRef spec0 0))
    (fun t _ => flushed_out m c t (entry m c (Pipeline.arrRef spec0 0)) rfl) covered

/-! ## The run, read -/

/-- Every weakly fair execution of @main terminates with the result at `scattered` of the argument arrays as
    launched, and the argument arrays unchanged. -/
theorem run : θ_run defs (onTc (τ := τ) (main (F := F))) ⟨m, fun _ => 0, ρ⟩ fun r => ∀ c : Dev nD,
      r.2.mem ((c : Thread nD τ).loc main_v41) = scattered (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(((h c).1 1).trans (result_final m c)).trans (entry_grid m c),
      kept_arg0 m r h c, kept_arg1 m r h c, kept_arg2 m r h c, kept_arg3 m r h c⟩)
    (run_main m ρ)

end Cert.KernelIdeal.Stream

end
-- ==== Proof.lean ====
/-
  The certificate of the streamed path-distance grid.

  Both programs compute, on the host, the same grid: every entry of a [64, 1024, 1024] array starts at the last row of the
  embedding table, `weight[511, 0]`, and each of the 200000 cached (node1, node2) pairs of every graph then has its
  slot set to the embedding `weight[distance, 0]` of the pair's path distance (a gather from the 512-row table and one
  scatter, later pairs winning). The reference returns that grid. The kernel's program then streams it through one
  pipelined region, a [1, 1024, 1024] slab per grid point, whose body stores what it loaded: the result is the same grid.

  * The three frames. The reference is host operations only: its run ends with the arguments unchanged. For the kernel,
    at the word level and idealized alike, no host operation writes an argument array, no window of the region stages
    one, and the region leaves every buffer it does not stage as it found it (`Stream.frame`).
  * `preserves`: the ideal pass rewrote nothing, and the conjunct is `True`.
  * `algebraic`: after the kernel's run the result array is slab by slab the scattered grid, the 64 slabs tiling it
    (`Stream.run`); the reference's run ends at the same composed term of the same arguments. No law of the extended
    reals is used and the precondition is never opened: the two results are one term.
-/
import proofs.«133970_j18691697672325_2_alg».proof.Defs
import proofs.«133970_j18691697672325_2_alg».proof.Proof.Gen.Kernel
import proofs.«133970_j18691697672325_2_alg».proof.Proof.Gen.KernelIdeal
import proofs.«133970_j18691697672325_2_alg».proof.Proof.Gen.ReferenceIdeal
import proofs.«133970_j18691697672325_2_alg».proof.Proof.Gen.ReferenceIdeal.Run
import proofs.«133970_j18691697672325_2_alg».proof.Proof.Gen.Pre_finite_inputs
import proofs.«133970_j18691697672325_2_alg».proof.Proof.StreamBits
import proofs.«133970_j18691697672325_2_alg».proof.Proof.ValueIdeal

noncomputable section

namespace Cert.Proof

open Idealize.ShloMosaic Idealize.ShloMosaic.TcCoe Idealize.SL.Sem

theorem frame_kernel : Cert.frame_Kernel := fun m ρ _ => Cert.Kernel.Stream.frame m ρ

theorem frame_kernelIdeal : Cert.frame_KernelIdeal := fun m ρ _ => Cert.KernelIdeal.Stream.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result is the scattered grid of its arguments; the reference's result is the same host operations'
    composed term of arguments that agree with them. -/
theorem algebraic : Cert.algebraic_KernelIdeal_ReferenceIdeal := by
  intro m ρ m' ρ' _ hagree
  refine ⟨_, Cert.KernelIdeal.Stream.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
